-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S4096x64 : Shape := ⟨2, ![4096, 64]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S65536x4096 .f32) (main_arg1 : FVec F S4096x64 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S65536x4096 : Shape := ⟨2, ![65536, 4096]⟩
abbrev S4096x64 : Shape := ⟨2, ![4096, 64]⟩
abbrev S65536x64 : Shape := ⟨2, ![65536, 64]⟩
abbrev S1024x4096 : Shape := ⟨2, ![1024, 4096]⟩
abbrev S1024x64 : Shape := ⟨2, ![1024, 64]⟩

abbrev nBuf : Space → Nat
  | .hbm => 7
  | .vmem => 6
  | .smem => 0
  | _ => 0

abbrev bufTy : (tb : Table) → Fin (tcTables nBuf tb) → BufTy
  | .hbm, ⟨0, _⟩ => ⟨S65536x4096, .f32⟩
  | .hbm, ⟨1, _⟩ => ⟨S4096x64, .f32⟩
  | .hbm, ⟨2, _⟩ => ⟨S4096x64, .bf16⟩
  | .hbm, ⟨3, _⟩ => ⟨S4096x64, .f32⟩
  | .hbm, ⟨4, _⟩ => ⟨S4096x64, .f32⟩
  | .hbm, ⟨5, _⟩ => ⟨S4096x64, .bf16⟩
  | .hbm, ⟨6, _⟩ => ⟨S65536x64, .f32⟩
  | .local _ .vmem, ⟨0, _⟩ => ⟨S1024x4096, .f32⟩
  | .local _ .vmem, ⟨1, _⟩ => ⟨S1024x4096, .f32⟩
  | .local _ .vmem, ⟨2, _⟩ => ⟨S4096x64, .bf16⟩
  | .local _ .vmem, ⟨3, _⟩ => ⟨S4096x64, .bf16⟩
  | .local _ .vmem, ⟨4, _⟩ => ⟨S1024x64, .f32⟩
  | .local _ .vmem, ⟨5, _⟩ => ⟨S1024x64, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1024x64_S1024x64_0_0 : ∀ a, (![0, 0] : Fin 2 → Nat) a + S1024x64.size a ≤ S1024x64.size a
  h_S1024x64 : 0 < S1024x64.numel
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S65536x4096.size a
  hwx0_0 : ∀ i : grid0.Coords, EltTy.bits .f32 = 32 ∨ (Rect.block (s := S65536x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S65536x64.size a
  hwx0_3 : ∀ i : grid0.Coords, EltTy.bits .f32 = 32 ∨ (Rect.block (s := S65536x64) S1024x64.size (cc0_transform_3 i) (hinb0_3 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S4096x64 : Shape := ⟨2, ![4096, 64]⟩
abbrev S65536x64 : Shape := ⟨2, ![65536, 64]⟩

abbrev nBuf : Space → Nat
  | .hbm => 3
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S4096x64, .f32⟩
  | .hbm, ⟨2, _⟩ => ⟨S65536x64, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x4096_S4096x64_S65536x64_1_0_0_1_n_n_wf : DotDims.WF S65536x4096 S4096x64 S65536x64 [1] [0] [0] [1] [] []

variable [Facts₀]

def dot_S65536x4096_S4096x64_S65536x64_1_0_0_1_n_n : DotDims S65536x4096 S4096x64 S65536x64 where
  lhsContracting := [1]
  rhsContracting := [0]
  lhsNonContracting := [0]
  rhsNonContracting := [1]
  lhsBatch := []
  rhsBatch := []
  wf := dot_S65536x4096_S4096x64_S65536x64_1_0_0_1_n_n_wf

class Facts : Prop extends Facts₀ where

variable [Facts]
-- ==== Proof.Finite.lean ====
/-
  Finiteness read out of the precondition.

  The precondition says that the conjunction over all entries of |x| < +∞ is true, for both arguments.  Read back
  one entry at a time this says that every entry of the codebook (and of the encodings) is a real number, not
  one of the two infinities.
-/
import proofs.«151365_j16475494548010_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The shape with no axes has exactly one index. -/
instance : Subsingleton S_.Idx := ⟨fun a b => funext fun d => d.elim0⟩

/-- The word the precondition compares against denotes +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

variable [Cert.Pre_finite_inputs.Facts]

/-- Under the precondition every entry of the second argument (the codebook) is a real number. -/
theorem codebook_real (a0 : FVec Ideal S65536x4096 .f32) (a1 : FVec Ideal S4096x64 .f32)
    (h : Cert.Pre_finite_inputs.fn (F := Ideal) a0 a1 = fun _ => 1#1) (j : S4096x64.Idx) :
    ∃ r : ℝ, a1 j = (r : EReal) := by
  have h0 := congrFun h ValueIdx.ix0
  dsimp only [Cert.Pre_finite_inputs.fn] at h0
  obtain ⟨-, h1⟩ := IntOp.andi_eq_one.1 h0
  have h2 := Host.reduce_andi_all _ _ _ _ _ h1 j
  have h3 : Ideal.cmp .olt (max (a1 j) (-(a1 j))) (Ideal.ofBits .f32 0x7F800000#32) = 1#1 := h2
  rw [inf_word] at h3
  refine real_of_abs_lt_top (a1 j) ?_
  by_contra hn
  simp [Ideal.cmp, hn] at h3

end Cert.Finite

end
-- ==== Proof.HostArrays.lean ====
/-
  The two codebook operands as the kernel's region finds them.

  Before the region the host splits the codebook: its "high part" is the codebook converted to the shorter format,
  its "low part" the codebook minus the high part converted back, converted again.  At exact values a format change
  is the identity, so the high part is the codebook and the low part is, entry by entry, cb - cb.
-/
import proofs.«151365_j16475494548010_2_alg».proof.Proof.Gen.KernelIdeal.Frame
import Idealize.ShloMosaic.Lib.StableHlo.Run
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The encodings as launched on core `c`, read as extended reals. -/
abbrev encOf (c : Dev nD) : S65536x4096.Idx → EReal := m ((c : Thread nD τ).loc main_arg0)

/-- The codebook as launched on core `c`, read as extended reals. -/
abbrev cbOf (c : Dev nD) : S4096x64.Idx → EReal := m ((c : Thread nD τ).loc main_arg1)

/-- The high part is the codebook. -/
theorem hi_array (c : Dev nD) : (V m c main_v0 : S4096x64.Idx → EReal) = cbOf m c := by
  dsimp only [Gen.V, Gen.hostOps0]
  after_results
  rfl

/-- The low part is the codebook minus itself, entry by entry. -/
theorem lo_array (c : Dev nD) :
    (V m c main_v3 : S4096x64.Idx → EReal) = fun j => cbOf m c j - cbOf m c j := by
  dsimp only [Gen.V, Gen.hostOps0]
  after_results
  rfl

end Cert.KernelIdeal.HostArrays

end
-- ==== Proof.Blocks.lean ====
/-
  The kernel's three input blocks at a grid point, read position by position.

  Grid point t stages rows 1024·t … 1024·t + 1023 of the encodings (all 4096 columns), and the whole high and low
  parts of the codebook.  So at point t the encodings block at (p, k) is enc (1024·t + p, k), the high part's block
  at (k, q) is cb (k, q), and the low part's block at (k, q) is cb (k, q) - cb (k, q).
-/
import proofs.«151365_j16475494548010_2_alg».proof.Proof.HostArrays
import Idealize.ShloMosaic.Lib.Pipeline.Value

noncomputable section

namespace Cert.KernelIdeal.Blocks

open Cert.KernelIdeal Cert.KernelIdeal.Gen Cert.KernelIdeal.HostArrays
open Idealize.ShloMosaic Idealize.ShloMosaic.TcCoe Idealize.SL.Sem Idealize.ShloMosaic.ValueIdx

variable (m : (ℓ : Loc nD τ sig) → Buf (Elt Ideal) ℓ)

/-- The printed index maps, decided over the 64 grid points: the encodings' and the result's block index is (t, 0),
    the two codebook parts' is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The encodings' block at point t, at (p, k), is the encodings at row 1024·t + p and column k. -/
theorem enc_block (c : Dev nD) (t : Fin cfg0.N) (p : Fin 1024) (k : Fin 4096) (i : S65536x4096.Idx)
    (h0 : (i 0).val = 1024 * t.val + p.val) (h1 : (i 1).val = k.val) :
    (iblk m c 0 t : Vec Ideal S1024x4096 .f32) (ix2 p k) = encOf m c i := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = (i 0).val; rw [e0, h0]; omega
  | ⟨1, _⟩ => show win0_0.index t 1 * 4096 + 1 * k.val = (i 1).val; rw [e1, h1]; omega

/-- The high part's block at any point, at (k, q), is the codebook at (k, q). -/
theorem hi_block (c : Dev nD) (t : Fin cfg0.N) (k : Fin 4096) (q : Fin 64) :
    (iblk m c 1 t : Vec Ideal S4096x64 .bf16) (ix2 k q) = cbOf m c (ix2 k q) := by
  obtain ⟨-, -, e0, e1, -⟩ := idx_facts t
  unfold iblk
  rw [View.read_apply]
  show (V m c main_v0 : S4096x64.Idx → EReal) _ = _
  rw [hi_array]
  congr 1
  funext a
  apply Fin.ext
  match a with
  | ⟨0, _⟩ => show win0_1.index t 0 * 4096 + 1 * k.val = k.val; rw [e0]; omega
  | ⟨1, _⟩ => show win0_1.index t 1 * 64 + 1 * q.val = q.val; rw [e1]; omega

/-- The low part's block at any point, at (k, q), is the codebook entry minus itself. -/
theorem lo_block (c : Dev nD) (t : Fin cfg0.N) (k : Fin 4096) (q : Fin 64) :
    (iblk m c 2 t : Vec Ideal S4096x64 .bf16) (ix2 k q) = cbOf m c (ix2 k q) - cbOf m c (ix2 k q) := by
  obtain ⟨-, -, -, -, e0, e1, -⟩ := idx_facts t
  have hemb : ((cfg0.win 2).blk t).view.emb (ix2 k q) = (ix2 k q : S4096x64.Idx) := by
    funext a
    apply Fin.ext
    match a with
    | ⟨0, _⟩ => show win0_2.index t 0 * 4096 + 1 * k.val = k.val; rw [e0]; omega
    | ⟨1, _⟩ => show win0_2.index t 1 * 64 + 1 * q.val = q.val; rw [e1]; omega
  unfold iblk
  rw [View.read_apply]
  show (V m c main_v3 : S4096x64.Idx → EReal) _ = _
  rw [lo_array, hemb]

end Cert.KernelIdeal.Blocks

end
-- ==== Proof.LibPlainDot.lean ====
/-
  A contraction of an M×K array with a K×N array over their shared axis, read at one position.

  Both the accelerator's matrix product into a zero accumulator and the host's general dot product, at the
  exact extended-real values, are at position (r, c) the finite sum over k of lhs (r, k) * rhs (k, c):
  no rounding and no order of accumulation is left in them. The dimension numbers are the plain ones
  (left operand contracted on its last axis, right operand on its first, no batch axes); any record with
  those numbers is the plain record, whatever proof of well-formedness it carries.
-/
import Idealize.ShloMosaic.PureOps.Ideal.Laws
import Idealize.ShloMosaic.Lib.ValueIdx

noncomputable section

open scoped BigOperators

namespace Cert.PlainDot

open Idealize.ShloMosaic Idealize.ShloMosaic.ValueIdx

/-- The contraction shape of a plain M×K by K×N product has one axis. -/
theorem contr_rank (M K N : ℕ) : (DotDims.plain M K N).contr.rank = 1 := rfl

/-- That axis has the shared extent K. -/
theorem contr_size (M K N : ℕ) : (DotDims.plain M K N).contr.size ⟨0, by rw [contr_rank]; exact Nat.one_pos⟩ = K := rfl

/-- The left operand's position for output position (r, c) and contraction coordinate k is (r, k). -/
theorem lhsIdx_eq {M K N : ℕ} (r : Fin M) (c : Fin N) (k : Fin K) :
    (DotDims.plain M K N).lhsIdx (ix2 r c) ((contrEquiv1 (DotDims.plain M K N) K (contr_rank M K N) (contr_size M K N)).symm k)
      = ix2 r k := by
  funext a
  refine Fin.ext ?_
  match a with
  | ⟨0, _⟩ => rfl
  | ⟨1, _⟩ =>
    exact ((DotDims.plain M K N).lhsIdx_val_of_single (cl := (1 : Fin 2)) rfl _ _).trans
      (contrEquiv1_symm_val (DotDims.plain M K N) K (contr_rank M K N) (contr_size M K N) k)

/-- The right operand's position is (k, c). -/
theorem rhsIdx_eq {M K N : ℕ} (r : Fin M) (c : Fin N) (k : Fin K) :
    (DotDims.plain M K N).rhsIdx (ix2 r c) ((contrEquiv1 (DotDims.plain M K N) K (contr_rank M K N) (contr_size M K N)).symm k)
      = ix2 k c := by
  funext a
  refine Fin.ext ?_
  match a with
  | ⟨0, _⟩ =>
    exact ((DotDims.plain M K N).rhsIdx_val_of_single (cr := (0 : Fin 2)) rfl _ _).trans
      (contrEquiv1_symm_val (DotDims.plain M K N) K (contr_rank M K N) (contr_size M K N) k)
  | ⟨1, _⟩ => rfl

/-- The contraction's sum over its index set is the sum over k < K of the products along row r and column c. -/
theorem sum_eq {M K N : ℕ} (f : (⟨2, ![M, K]⟩ : Shape).Idx → EReal) (g : (⟨2, ![K, N]⟩ : Shape).Idx → EReal)
    (r : Fin M) (c : Fin N) :
    ∑ k : (DotDims.plain M K N).contr.Idx,
        f ((DotDims.plain M K N).lhsIdx (ix2 r c) k) * g ((DotDims.plain M K N).rhsIdx (ix2 r c) k)
      = ∑ k : Fin K, f (ix2 r k) * g (ix2 k c) := by
  rw [← Equiv.sum_comp (contrEquiv1 (DotDims.plain M K N) K (contr_rank M K N) (contr_size M K N)).symm]
  refine Finset.sum_congr rfl fun k _ => ?_
  rw [lhsIdx_eq, rhsIdx_eq]

/-- The accelerator's matrix product into the zero accumulator, at (r, c). -/
theorem matmul_zero_apply {M K N : ℕ} (d : DotDims ⟨2, ![M, K]⟩ ⟨2, ![K, N]⟩ ⟨2, ![M, N]⟩) (hd : d = DotDims.plain M K N)
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact sum_eq lhs rhs r c

/-- The host's general dot product, at (r, c), whatever its schedule. -/
theorem dotGeneral_apply {M K N : ℕ} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ .f32) (rhs : FVec Ideal ⟨2, ![K, N]⟩ .f32)
    (r : Fin M) (c : Fin N) :
    FloatOps.dotGeneral d prec sched lhs rhs (ix2 r c) = ∑ k : Fin K, lhs (ix2 r k) * rhs (ix2 k c) := by
  subst hd
  rw [Ideal.dotGeneral_apply]
  exact sum_eq lhs rhs r c

end Cert.PlainDot

end
-- ==== Proof.Spec.lean ====
/-
  The function both programs compute, and the law that joins their two spellings.

  The result at row r and column c is the product of the encodings with the codebook,
      out (r, c) = ∑ k, enc (r, k) * cb (k, c).
  The kernel reaches it as the sum of two products: one with the codebook itself (its "high part", which at exact
  values is the codebook) and one with the residual cb - cb.  When every codebook entry is a real number the residual
  is zero, a product with zero is zero on the extended reals whatever the other factor, so the second sum vanishes.
-/
import Idealize.ShloMosaic.PureOps.Ideal.Laws
import Idealize.ShloMosaic.Lib.ValueIdx
import proofs.«151365_j16475494548010_2_alg».proof.Proof.LibPlainDot

noncomputable section

open scoped BigOperators

namespace Cert.Spec

open Idealize.ShloMosaic Idealize.ShloMosaic.ValueIdx

/-- The product of a 65536×4096 array with a 4096×64 array, position by position. -/
def rowsTimes (enc : (⟨2, ![65536, 4096]⟩ : Shape).Idx → EReal) (cb : (⟨2, ![4096, 64]⟩ : Shape).Idx → EReal) :
    (⟨2, ![65536, 64]⟩ : Shape).Idx → EReal :=
  fun i => ∑ k : Fin 4096, enc (ix2 (i 0) k) * cb (ix2 k (i 1))

/-- A real number minus itself is zero on the extended reals. -/
theorem sub_self_of_real {x : EReal} (h : ∃ r : ℝ, x = (r : EReal)) : x - x = 0 := by
  obtain ⟨r, rfl⟩ := h
  rw [← EReal.coe_sub, sub_self, EReal.coe_zero]

/-- A sum of products whose second factors are all residuals `c k - c k` of real numbers is zero. -/
theorem sum_mul_residual {ι : Type} [Fintype ι] (e c : ι → EReal) (hc : ∀ k, ∃ r : ℝ, c k = (r : EReal)) :
    ∑ k, e k * (c k - c k) = 0 :=
  Finset.sum_eq_zero fun k _ => by rw [sub_self_of_real (hc k), mul_zero]

/-- The two-product spelling equals the single product when the second factors are real. -/
theorem split_product {ι : Type} [Fintype ι] (e c : ι → EReal) (hc : ∀ k, ∃ r : ℝ, c k = (r : EReal)) :
    (∑ k, e k * c k) + (∑ k, e k * (c k - c k)) = ∑ k, e k * c k := by
  rw [sum_mul_residual e c hc, add_zero]

/-- The matrix unit's product into a zero accumulator, for operands of any two float formats, at row r and column c. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact Cert.PlainDot.sum_eq lhs rhs r c

end Cert.Spec

end
-- ==== Proof.Payload.lean ====
/-
  What the kernel body stores, read at one position of the block.

  The body loads a 1024×4096 block of encodings and the two whole 4096×64 operands, multiplies the block with each
  operand on the matrix unit (into zero accumulators) and adds the two products.  At exact values the format changes
  are the identity, so the stored value at (p, q) is
      ∑ k, x0 (p, k) * x1 (k, q)  +  ∑ k, x0 (p, k) * x2 (k, q).
-/
import proofs.«151365_j16475494548010_2_alg».proof.Proof.Gen.KernelIdeal.Skeleton
import proofs.«151365_j16475494548010_2_alg».proof.Proof.Spec
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The kernel's contraction record is the plain rows-by-columns one. -/
theorem dot_plain : dot_S1024x4096_S4096x64_S1024x64_1_0_0_1_n_n = DotDims.plain 1024 4096 64 := rfl

/-- The body's stored value at row p and column q of the block: the two products' sums, added. -/
theorem stored_apply (x0 : Vec Ideal S1024x4096 .f32) (x1 x2 : Vec Ideal S4096x64 .bf16) (p : Fin 1024) (q : Fin 64) :
    k0_pay1 (F := Ideal) x0 x1 x2 (ix2 p q)
      = (∑ k : Fin 4096, x0 (ix2 p k) * x1 (ix2 k q)) + (∑ k : Fin 4096, x0 (ix2 p k) * x2 (ix2 k q)) := by
  unfold k0_pay1
  simp only [shapeCast_self]
  refine (addf_apply _ _ _).trans ?_
  congr 1
  · exact Cert.Spec.matmul_zero_apply _ dot_plain none (truncf .bf16 x0 bitsLt_bf16_f32) x1 p q
  · exact Cert.Spec.matmul_zero_apply _ dot_plain none (truncf .bf16 x0 bitsLt_bf16_f32) x2 p q

end Cert.KernelIdeal.Payload

end
-- ==== Proof.KernelValue.lean ====
/-
  The kernel's result array, whole.

  Point t of the 64-point grid writes back rows 1024·t … 1024·t + 1023 of the result.  What it writes at (p, q) is the
  sum of the two products of its encodings block with the codebook's high and low parts; with a real codebook the
  second product vanishes and the first is the plain product of the encodings with the codebook at row 1024·t + p and
  column q.  The 64 blocks tile the 65536 rows, so after the run the result array is the plain product everywhere.
-/
import proofs.«151365_j16475494548010_2_alg».proof.Proof.Gen.KernelIdeal.Value
import proofs.«151365_j16475494548010_2_alg».proof.Proof.Blocks
import proofs.«151365_j16475494548010_2_alg».proof.Proof.Payload

noncomputable section

open scoped BigOperators

namespace Cert.KernelIdeal.Whole

open Cert.KernelIdeal Cert.KernelIdeal.Gen Cert.KernelIdeal.HostArrays Cert.KernelIdeal.Blocks
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- One stored entry against the plain product.  For a block of encodings that is rows 1024·tv … of `enc`, the whole
    codebook `cb` (all entries real) as the first operand and its residual `cb - cb` as the second, the body's value
    at position y of the block is the product of `enc` and `cb` at the array position i that y lands on. -/
theorem block_value (x0 : Vec Ideal S1024x4096 .f32) (x1 x2 : Vec Ideal S4096x64 .bf16)
    (enc : S65536x4096.Idx → EReal) (cb : S4096x64.Idx → EReal) (hcb : ∀ j, ∃ r : ℝ, cb j = (r : EReal))
    (tv : ℕ)
    (h0 : ∀ (p : Fin 1024) (k : Fin 4096) (i : S65536x4096.Idx), (i 0).val = 1024 * tv + p.val → (i 1).val = k.val →
      x0 (ix2 p k) = enc i)
    (h1 : ∀ (k : Fin 4096) (q : Fin 64), x1 (ix2 k q) = cb (ix2 k q))
    (h2 : ∀ (k : Fin 4096) (q : Fin 64), x2 (ix2 k q) = cb (ix2 k q) - cb (ix2 k q))
    (y : S1024x64.Idx) (i : S65536x64.Idx) (hi0 : (i 0).val = 1024 * tv + (y 0).val) (hi1 : (i 1).val = (y 1).val) :
    k0_pay1 (F := Ideal) x0 x1 x2 y = Cert.Spec.rowsTimes enc cb i := by
  obtain ⟨p, q, rfl⟩ : ∃ (p : Fin 1024) (q : Fin 64), y = ix2 p q := ⟨y 0, y 1, eq_ix2 y⟩
  rw [Cert.KernelIdeal.Payload.stored_apply]
  have e1 : ∀ k : Fin 4096, x0 (ix2 p k) * x1 (ix2 k q) = enc (ix2 (i 0) k) * cb (ix2 k (i 1)) := fun k => by
    rw [h0 p k (ix2 (i 0) k) hi0 rfl, h1 k q]
    have hq : q = i 1 := Fin.ext hi1.symm
    rw [hq]
  have e2 : ∀ k : Fin 4096, x0 (ix2 p k) * x2 (ix2 k q)
      = enc (ix2 (i 0) k) * (cb (ix2 k (i 1)) - cb (ix2 k (i 1))) := fun k => by
    rw [h0 p k (ix2 (i 0) k) hi0 rfl, h2 k q]
    have hq : q = i 1 := Fin.ext hi1.symm
    rw [hq]
  simp only [e1, e2]
  exact Cert.Spec.split_product (fun k => enc (ix2 (i 0) k)) (fun k => cb (ix2 k (i 1))) (fun k => hcb _)

variable (m : (ℓ : Loc nD τ sig) → Buf (Elt Ideal) ℓ) (ρ : Dev nD → PrngReg)

/-- What point t writes back is block t of the plain product of the launched encodings and codebook. -/
theorem flushed_eq (c : Dev nD) (hcb : ∀ j, ∃ r : ℝ, cbOf m c j = (r : EReal)) (t : Fin cfg0.N) :
    (dats m 0 c).flushed 3 t
      = ((cfg0.win 3).blk t).view.read (Elt Ideal) (Cert.Spec.rowsTimes (encOf m c) (cbOf m c)) := by
  rw [Cert.KernelIdeal.Value.flushed3]
  unfold out0_3
  rw [View.canon_unit_zero hz]
  simp only [View.ld_unit_zero (S := S1024x4096) hz, View.ld_unit_zero (S := S4096x64) hz]
  obtain ⟨-, -, -, -, -, -, e0, e1⟩ := idx_facts t
  funext j
  show k0_pay1 (iblk m c 0 t) (iblk m c 1 t) (iblk m c 2 t) j
    = Cert.Spec.rowsTimes (encOf m c) (cbOf m c) (((cfg0.win 3).blk t).view.emb j)
  refine block_value _ _ _ (encOf m c) (cbOf m c) hcb t.val
    (fun p k i h0 h1 => enc_block m c t p k i h0 h1) (fun k q => hi_block m c t k q) (fun k q => lo_block m c t k q)
    j _ ?_ ?_
  · show win0_3.index t 0 * 1024 + 1 * (j 0).val = 1024 * t.val + (j 0).val
    rw [e0]; omega
  · show win0_3.index t 1 * 64 + 1 * (j 1).val = (j 1).val
    rw [e1]; omega

/-- An index of the result array is in point t's block iff each coordinate is in the block's range on its axis. -/
theorem mem_blk (t : Fin cfg0.N) (i : S65536x64.Idx) :
    i ∈ ((cfg0.win 3).blk t).view.set
      ↔ ∀ a : Fin 2, win0_3.index t a * S1024x64.size a ≤ (i a).val ∧ (i a).val < win0_3.index t a * S1024x64.size a + S1024x64.size a := by
  show i ∈ ((View.whole main_v4).slice (win0_3.rect t)).set ↔ _
  rw [View.set_slice_whole, Rect.mem_set_unit]
  exact Iff.rfl

/-- Every position of the result array is in the block of the point that owns its row: point ⌊row / 1024⌋. -/
theorem cover (i : S65536x64.Idx) :
    ∃ t : Fin cfg0.N, (cfg0.win 3).flush t = true ∧ i ∈ ((cfg0.win 3).blk t).view.set := by
  have hi0 : (i 0).val < 65536 := idx2_lt0 i
  have hi1 : (i 1).val < 64 := idx2_lt1 i
  have hN : cfg0.N = 64 := N_0
  let t : Fin cfg0.N := ⟨(i 0).val / 1024, by rw [hN]; omega⟩
  obtain ⟨-, -, -, -, -, -, e0, e1⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 64 ≤ (i 1).val ∧ (i 1).val < win0_3.index t (1 : Fin 2) * 64 + 64
    rw [e1]; omega

/-- After the run the result array is the plain product of the launched encodings and codebook. -/
theorem final (c : Dev nD) (hcb : ∀ j, ∃ r : ℝ, cbOf m c j = (r : EReal)) :
    (dats m 0 c).arrAt 3 cfg0.N = Cert.Spec.rowsTimes (encOf m c) (cbOf m c) :=
  (dats m 0 c).arrAt_eq_of_cover 3 (Cert.Spec.rowsTimes (encOf m c) (cbOf m c))
    (fun t _ => flushed_eq m c hcb t) cover

/-- The run, read: when every launched codebook entry is real, every weakly fair execution ends with the result array at
    the plain product and the two arguments unchanged. -/
theorem run (hcb : ∀ c j, ∃ r : ℝ, cbOf m c j = (r : EReal)) :
    θ_run defs (onTc (τ := τ) (main (F := Ideal))) ⟨m, fun _ => 0, ρ⟩ fun r => ∀ c : Dev nD,
      r.2.mem ((c : Thread nD τ).loc main_v4) = Cert.Spec.rowsTimes (encOf m c) (cbOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hcb c)), (h c).2⟩)
    (Cert.KernelIdeal.Value.run_blocks m ρ)

end Cert.KernelIdeal.Whole

end
-- ==== Proof.RefValue.lean ====
/-
  The reference's result is the plain product.

  The reference is one general dot product of the encodings with the codebook, contracting the encodings' columns with
  the codebook's rows.  At exact values its entry at (r, c) is ∑ k, enc (r, k) * cb (k, c): the function both programs
  are compared through.
-/
import proofs.«151365_j16475494548010_2_alg».proof.Proof.Gen.ReferenceIdeal.Read
import proofs.«151365_j16475494548010_2_alg».proof.Proof.Spec

noncomputable section

open scoped BigOperators

namespace Cert.ReferenceIdeal.RefValue

open Cert.ReferenceIdeal Cert.ReferenceIdeal.Gen Idealize.ShloMosaic Idealize.ShloMosaic.ValueIdx

/-- The reference's dot product of two arrays is their plain product, position by position. -/
theorem result_eq (x0 : S65536x4096.Idx → EReal) (x1 : S4096x64.Idx → EReal) :
    Host.dotGeneral (F := Ideal) (φ₁ := .f32) (φ₂ := .f32) dot_S65536x4096_S4096x64_S65536x64_1_0_0_1_n_n none x0 x1
      = Cert.Spec.rowsTimes x0 x1 := by
  funext i
  rw [Cert.ReferenceIdeal.Read.val_main_v0_eq, Cert.ReferenceIdeal.Read.val_main_v0_apply]
  unfold Cert.Spec.rowsTimes
  refine Finset.sum_congr rfl fun k _ => ?_
  have el : Cert.ReferenceIdeal.Read.lidx_main_v0 i k = ix2 (i 0) k :=
    funext fun a => Fin.ext (by match a with | ⟨0, _⟩ => rfl | ⟨1, _⟩ => rfl)
  have er : Cert.ReferenceIdeal.Read.ridx_main_v0 i k = ix2 k (i 1) :=
    funext fun a => Fin.ext (by match a with | ⟨0, _⟩ => rfl | ⟨1, _⟩ => rfl)
  rw [el, er]
  rfl

end Cert.ReferenceIdeal.RefValue

end
-- ==== Proof.lean ====
/-
  quantized = encodings · codebook, computed two ways.

  The reference multiplies the 65536×4096 encodings with the 4096×64 codebook in one general dot product.  The kernel
  first splits the codebook into a "high part" (the codebook in a shorter float format) and a "low part" (the residual
  codebook − high part, again shortened), and for each block of 1024 rows adds the two matrix-unit products of the
  encodings block with the high and the low part.

  At exact extended-real values a change of float format is the identity: the high part is the codebook and the low
  part is cb − cb entry by entry.  The precondition makes every codebook entry a real number, so the residual is zero;
  a product with zero is zero on the extended reals whatever the other factor, so the kernel's second product is a sum
  of zeros, and adding it changes nothing.  Both programs therefore end with
      out (r, c) = ∑ k, enc (r, k) * cb (k, c)
  in the result array: the reference by its one dot product read at a position, the kernel block by block, the 64
  blocks of 1024 rows tiling the 65536 rows.  Only the codebook's finiteness is used; the encodings may be any
  extended reals.  No operation of the kernel is rewritten in passing to exact values, so the idealization claim is
  trivial, and the three frame claims are the generated frame runs.
-/
import proofs.«151365_j16475494548010_2_alg».proof.Defs
import proofs.«151365_j16475494548010_2_alg».proof.Proof.Gen.Kernel
import proofs.«151365_j16475494548010_2_alg».proof.Proof.Gen.Kernel.Skeleton
import proofs.«151365_j16475494548010_2_alg».proof.Proof.Gen.Kernel.Launch
import proofs.«151365_j16475494548010_2_alg».proof.Proof.Gen.Kernel.Points
import proofs.«151365_j16475494548010_2_alg».proof.Proof.Gen.Kernel.Frame
import proofs.«151365_j16475494548010_2_alg».proof.Proof.Gen.KernelIdeal
import proofs.«151365_j16475494548010_2_alg».proof.Proof.Gen.KernelIdeal.Skeleton
import proofs.«151365_j16475494548010_2_alg».proof.Proof.Gen.KernelIdeal.Launch
import proofs.«151365_j16475494548010_2_alg».proof.Proof.Gen.KernelIdeal.Points
import proofs.«151365_j16475494548010_2_alg».proof.Proof.Gen.KernelIdeal.Frame
import proofs.«151365_j16475494548010_2_alg».proof.Proof.Gen.ReferenceIdeal
import proofs.«151365_j16475494548010_2_alg».proof.Proof.Gen.KernelIdeal.Value
import proofs.«151365_j16475494548010_2_alg».proof.Proof.Gen.ReferenceIdeal.Run
import proofs.«151365_j16475494548010_2_alg».proof.Proof.Gen.ReferenceIdeal.Read
import proofs.«151365_j16475494548010_2_alg».proof.Proof.Gen.Pre_finite_inputs
import proofs.«151365_j16475494548010_2_alg».proof.Proof.Finite
import proofs.«151365_j16475494548010_2_alg».proof.Proof.KernelValue
import proofs.«151365_j16475494548010_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the plain product of the encodings and the codebook: the kernel because the precondition
    makes the codebook real, so that its second product vanishes; the reference by its dot product read at a position. -/
theorem algebraic : Cert.algebraic_KernelIdeal_ReferenceIdeal := by
  intro m ρ m' ρ' hpre hagree
  have hcb : ∀ c j, ∃ r : ℝ, Cert.KernelIdeal.HostArrays.cbOf m c j = (r : EReal) := fun c j =>
    Cert.Finite.codebook_real _ _ (hpre c) j
  refine ⟨fun c => Cert.Spec.rowsTimes (Cert.KernelIdeal.HostArrays.encOf m c) (Cert.KernelIdeal.HostArrays.cbOf m c),
    Cert.KernelIdeal.Whole.run m ρ hcb, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
